-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1x4096 : Shape := ⟨2, ![1, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  main_v18

def fn {F : FTy → Type} [FloatOps F] (main_arg0 : FVec F S8192x4096 .f32) (main_arg1 : FVec F S8192x4096 .f32) (main_arg2 : FVec F S1x4096 .f32) (main_arg3 : FVec F S1x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_v13 main_v16
-- ==== Kernel.lean ====
abbrev S8192x4096 : Shape := ⟨2, ![8192, 4096]⟩
abbrev S1x4096 : Shape := ⟨2, ![1, 4096]⟩
abbrev S1x8192 : Shape := ⟨2, ![1, 8192]⟩
abbrev S_ : Shape := ⟨0, ![]⟩
abbrev S1 : Shape := ⟨1, ![1]⟩
abbrev S1x1 : Shape := ⟨2, ![1, 1]⟩
abbrev S1x1x8192 : Shape := ⟨3, ![1, 1, 8192]⟩
abbrev S1x2x8192 : Shape := ⟨3, ![1, 2, 8192]⟩
abbrev S512x4096 : Shape := ⟨2, ![512, 4096]⟩
abbrev S1x512 : Shape := ⟨2, ![1, 512]⟩

abbrev nBuf : Space → Nat
  | .hbm => 37
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x4096, .f32⟩
  | .hbm, ⟨3, _⟩ => ⟨S1x4096, .f32⟩
  | .hbm, ⟨4, _⟩ => ⟨S1x8192, .f32⟩
  | .hbm, ⟨5, _⟩ => ⟨S1x8192, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S_, .f32⟩
  | .hbm, ⟨16, _⟩ => ⟨S1, .f32⟩
  | .hbm, ⟨17, _⟩ => ⟨S1x1, .f32⟩
  | .hbm, ⟨18, _⟩ => ⟨S1x8192, .f32⟩
  | .hbm, ⟨19, _⟩ => ⟨S1x8192, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S_, .f32⟩
  | .hbm, ⟨30, _⟩ => ⟨S1, .f32⟩
  | .hbm, ⟨31, _⟩ => ⟨S1x1, .f32⟩
  | .hbm, ⟨32, _⟩ => ⟨S1x8192, .f32⟩
  | .hbm, ⟨33, _⟩ => ⟨S1x8192, .f32⟩
  | .hbm, ⟨34, _⟩ => ⟨S1x1x8192, .f32⟩
  | .hbm, ⟨35, _⟩ => ⟨S1x1x8192, .f32⟩
  | .hbm, ⟨36, _⟩ => ⟨S1x2x8192, .f32⟩
  | .local _ .vmem, ⟨0, _⟩ => ⟨S1x4096, .f32⟩
  | .local _ .vmem, ⟨1, _⟩ => ⟨S1x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0_0 : Ref sig .tc := ⟨.hbm, 4, rfl⟩
abbrev main_call0_v0_1 : Ref sig .tc := ⟨.hbm, 5, rfl⟩
abbrev main_call0_cst : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_cst_2 : Ref sig .tc := ⟨.hbm, 20, rfl⟩
abbrev main_call0_v12 : Ref sig .tc := ⟨.hbm, 21, rfl⟩
abbrev main_call0_cst_3 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_cst_4 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_v0 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1x8192_S1_d1 : S1x8192.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x8192_0_1 : S1x1.BroadcastsInDim S1x8192 (![0, 1] : Fin 2 → Fin S1x8192.rank)
  bcast_S1x8192_S1x1x8192_0_2 : S1x8192.BroadcastsInDim S1x1x8192 (![0, 2] : Fin 2 → Fin S1x1x8192.rank)
  concatenates_S1x1x8192_S1x1x8192_S1x2x8192_d1 : Shape.Concatenates [S1x1x8192, S1x1x8192] S1x2x8192 1
  inb_S1x4096_S1x4096_0_0 : ∀ a, (![0, 0] : Fin 2 → Nat) a + S1x4096.size a ≤ S1x4096.size a
  h_S1x4096 : 0 < S1x4096.numel
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  dot_S1x4096_S512x4096_S1x512_1_1_0_0_n_n_wf : DotDims.WF S1x4096 S512x4096 S1x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)

variable [Facts₀]

def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf

abbrev win0_0 : Pipeline.Window sig grid0 :=
  Pipeline.Window.ofSpec (Memref.whole main_arg2) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_0) S1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0_1) S1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1x4096 : Shape := ⟨2, ![1, 4096]⟩
abbrev S1x8192 : Shape := ⟨2, ![1, 8192]⟩
abbrev S_ : Shape := ⟨0, ![]⟩
abbrev S1 : Shape := ⟨1, ![1]⟩
abbrev S1x1 : Shape := ⟨2, ![1, 1]⟩
abbrev S1x1x8192 : Shape := ⟨3, ![1, 1, 8192]⟩
abbrev S1x2x8192 : Shape := ⟨3, ![1, 2, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x4096, .f32⟩
  | .hbm, ⟨3, _⟩ => ⟨S1x4096, .f32⟩
  | .hbm, ⟨4, _⟩ => ⟨S1x8192, .f32⟩
  | .hbm, ⟨5, _⟩ => ⟨S1x8192, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S1x8192, .f32⟩
  | .hbm, ⟨13, _⟩ => ⟨S1x8192, .f32⟩
  | .hbm, ⟨14, _⟩ => ⟨S1x8192, .f32⟩
  | .hbm, ⟨15, _⟩ => ⟨S_, .f32⟩
  | .hbm, ⟨16, _⟩ => ⟨S1, .f32⟩
  | .hbm, ⟨17, _⟩ => ⟨S1x1, .f32⟩
  | .hbm, ⟨18, _⟩ => ⟨S1x8192, .f32⟩
  | .hbm, ⟨19, _⟩ => ⟨S1x8192, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S_, .f32⟩
  | .hbm, ⟨30, _⟩ => ⟨S1, .f32⟩
  | .hbm, ⟨31, _⟩ => ⟨S1x1, .f32⟩
  | .hbm, ⟨32, _⟩ => ⟨S1x8192, .f32⟩
  | .hbm, ⟨33, _⟩ => ⟨S1x8192, .f32⟩
  | .hbm, ⟨34, _⟩ => ⟨S1x1x8192, .f32⟩
  | .hbm, ⟨35, _⟩ => ⟨S1x1x8192, .f32⟩
  | .hbm, ⟨36, _⟩ => ⟨S1x2x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  reducesTo_S1x8192_S1_d1 : S1x8192.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x8192_0_1 : S1x1.BroadcastsInDim S1x8192 (![0, 1] : Fin 2 → Fin S1x8192.rank)
  bcast_S1x8192_S1x1x8192_0_2 : S1x8192.BroadcastsInDim S1x1x8192 (![0, 2] : Fin 2 → Fin S1x1x8192.rank)
  concatenates_S1x1x8192_S1x1x8192_S1x2x8192_d1 : Shape.Concatenates [S1x1x8192, S1x1x8192] S1x2x8192 1
  dot_S1x4096_S8192x4096_S1x8192_1_1_0_0_n_n_wf : DotDims.WF S1x4096 S8192x4096 S1x8192 [1] [1] [0] [0] [] []

variable [Facts₀]

def dot_S1x4096_S8192x4096_S1x8192_1_1_0_0_n_n : DotDims S1x4096 S8192x4096 S1x8192 where
  lhsContracting := [1]
  rhsContracting := [1]
  lhsNonContracting := [0]
  rhsNonContracting := [0]
  lhsBatch := []
  rhsBatch := []
  wf := dot_S1x4096_S8192x4096_S1x8192_1_1_0_0_n_n_wf

class Facts : Prop extends Facts₀ where

variable [Facts]
-- ==== Proof.Scores.lean ====
/-
  The mathematics both programs compute, stated once and over no program.

  A weight row `w` of 4096 entries is multiplied into each of the 8192 rows of a matrix `g`: the score of row `s`
  is the sum over `d` of `w[0, d] · g[s, d]`, an extended real (`score`).  Two such score rows, one per weight/matrix
  pair, are each normalised by the numerically stable softmax along their 8192 entries — subtract the row maximum
  (never below −∞), exponentiate, divide by the sum of the exponentials — and the two normalised rows are laid side
  by side along a new middle axis, giving an array [1, 2, 8192] (`stacked`).

  Nothing here is opened by the certificate: the two programs are shown to feed EQUAL score rows into this one
  normalise-and-stack function, so the softmax itself is never unfolded.
-/
import Idealize.ShloMosaic.PureOps
import Idealize.ShloMosaic.PureOps.Ideal

noncomputable section

namespace Cert.Scores

open Idealize.ShloMosaic

/-- The weight row [1, 4096], the matrix [8192, 4096], a score row [1, 8192]. -/
abbrev SW : Shape := ⟨2, ![1, 4096]⟩
abbrev SG : Shape := ⟨2, ![8192, 4096]⟩
abbrev SP : Shape := ⟨2, ![1, 8192]⟩
/-- The shapes the softmax passes through: a scalar, [1], [1, 1], and the two stacking shapes. -/
abbrev S0 : Shape := ⟨0, ![]⟩
abbrev S1 : Shape := ⟨1, ![1]⟩
abbrev S11 : Shape := ⟨2, ![1, 1]⟩
abbrev SP3 : Shape := ⟨3, ![1, 1, 8192]⟩
abbrev SR : Shape := ⟨3, ![1, 2, 8192]⟩

/-- Entry `d` of the weight row, as the score at index `i` reads it: (i₀, d). -/
abbrev wAt (i : SP.Idx) (d : Fin 4096) : SW.Idx := fun a => match a with
  | ⟨0, _⟩ => ⟨(i 0).val, (i 0).isLt⟩
  | ⟨1, _⟩ => ⟨d.val, d.isLt⟩
/-- Entry `d` of the matrix row the score at index `i` belongs to: (i₁, d). -/
abbrev gAt (i : SP.Idx) (d : Fin 4096) : SG.Idx := fun a => match a with
  | ⟨0, _⟩ => ⟨(i 1).val, (i 1).isLt⟩
  | ⟨1, _⟩ => ⟨d.val, d.isLt⟩

/-- THE SCORE ROW: at (0, s) the dot product of the weight row with row `s` of the matrix, on the extended reals. -/
def score (w : FVec Ideal SW .f32) (g : FVec Ideal SG .f32) : FVec Ideal SP .f32 :=
  fun i => ∑ d : Fin 4096, w (wAt i d) * g (gAt i d)

theorem red : SP.ReducesTo [1] S1 := by decide
theorem pos : 0 < S0.numel := by decide
theorem b01 : S0.BroadcastsInDim S1 (![] : Fin 0 → Fin S1.rank) := by decide
theorem b1 : S1.BroadcastsInDim S11 (![0] : Fin 1 → Fin S11.rank) := by decide
theorem b2 : S11.BroadcastsInDim SP (![0, 1] : Fin 2 → Fin SP.rank) := by decide
theorem b3 : SP.BroadcastsInDim SP3 (![0, 2] : Fin 2 → Fin SP3.rank) := by decide
theorem cat : Shape.Concatenates [SP3, SP3] SR 1 := by decide

/-- The exponentials of a row shifted by its maximum: exp (p − max(−∞, max p)), entry by entry. -/
def shiftedExp (p : FVec Ideal SP .f32) : FVec Ideal SP .f32 :=
  Host.exp (F := Ideal) (subf p (broadcastInDim SP ![0, 1] b2 (broadcastInDim S11 ![0] b1
    (maximumf (broadcastInDim S1 ![] b01 (constant (F := Ideal) S0 .f32 0xFF800000#32))
      (Host.reduce (FloatOps.maximumf (F := Ideal) (φ := .f32)) p (constant (F := Ideal) S0 .f32 0xFF800000#32) red pos)))))

/-- The softmax of a row along its 8192 entries: each shifted exponential over their sum. -/
def softmaxRow (p : FVec Ideal SP .f32) : FVec Ideal SP .f32 :=
  Host.divf (F := Ideal) (shiftedExp p) (broadcastInDim SP ![0, 1] b2 (broadcastInDim S11 ![0] b1
    (Host.reduceAdd (F := Ideal) (shiftedExp p) (constant (F := Ideal) S0 .f32 0x00000000#32) red pos)))

/-- THE RESULT: the two softmaxed rows side by side along a new middle axis, [1, 2, 8192]. -/
def stacked (p1 p2 : FVec Ideal SP .f32) : FVec Ideal SR .f32 :=
  concatenate SR 1 [⟨SP3, broadcastInDim SP3 ![0, 2] b3 (softmaxRow p1)⟩, ⟨SP3, broadcastInDim SP3 ![0, 2] b3 (softmaxRow p2)⟩] cat

end Cert.Scores

end
-- ==== Proof.RefScores.lean ====
/-
  The reference's matrix product is the score row.

  The reference contracts the weight row [1, 4096] with the matrix [8192, 4096] along their axes of length 4096
  (`dot_general`, contracting dimensions [1] × [1], no batch axis). At output index i = (i₀, i₁) and contraction
  index d the left operand is read at (i₀, d) and the right at (i₁, d); on the extended reals the product is the plain
  sum over d of those products, with no accumulator: exactly `Scores.score`.
-/
import proofs.«172609_j15539191677615_2_alg».proof.Proof.Gen.ReferenceIdeal
import proofs.«172609_j15539191677615_2_alg».proof.Proof.Scores
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic

/-- The left operand's row is the output's row (the free axis of the weight row, of extent 1). -/
theorem lhs_row (i : S1x8192.Idx) (q : dot_S1x4096_S8192x4096_S1x8192_1_1_0_0_n_n.contr.Idx) :
    (dot_S1x4096_S8192x4096_S1x8192_1_1_0_0_n_n.lhsIdx i q 0).val = (i 0).val := by
  unfold DotDims.lhsIdx
  rw [dif_neg (show ¬(0 : Fin S1x4096.rank) ∈ dot_S1x4096_S8192x4096_S1x8192_1_1_0_0_n_n.lhsBatch by decide),
    dif_pos (show (0 : Fin S1x4096.rank) ∈ dot_S1x4096_S8192x4096_S1x8192_1_1_0_0_n_n.lhsNonContracting by decide)]
  rfl
/-- The left operand's column is the contraction index. -/
theorem lhs_col (i : S1x8192.Idx) (q : dot_S1x4096_S8192x4096_S1x8192_1_1_0_0_n_n.contr.Idx) :
    (dot_S1x4096_S8192x4096_S1x8192_1_1_0_0_n_n.lhsIdx i q 1).val = (q ⟨0, by decide⟩).val :=
  dot_S1x4096_S8192x4096_S1x8192_1_1_0_0_n_n.lhsIdx_val_of_single rfl i q
/-- The right operand's row is the output's column: score s reads matrix row s. -/
theorem rhs_row (i : S1x8192.Idx) (q : dot_S1x4096_S8192x4096_S1x8192_1_1_0_0_n_n.contr.Idx) :
    (dot_S1x4096_S8192x4096_S1x8192_1_1_0_0_n_n.rhsIdx i q 0).val = (i 1).val := by
  unfold DotDims.rhsIdx
  rw [dif_neg (show ¬(0 : Fin S8192x4096.rank) ∈ dot_S1x4096_S8192x4096_S1x8192_1_1_0_0_n_n.rhsBatch by decide),
    dif_pos (show (0 : Fin S8192x4096.rank) ∈ dot_S1x4096_S8192x4096_S1x8192_1_1_0_0_n_n.rhsNonContracting by decide)]
  rfl
/-- The right operand's column is the contraction index. -/
theorem rhs_col (i : S1x8192.Idx) (q : dot_S1x4096_S8192x4096_S1x8192_1_1_0_0_n_n.contr.Idx) :
    (dot_S1x4096_S8192x4096_S1x8192_1_1_0_0_n_n.rhsIdx i q 1).val = (q ⟨0, by decide⟩).val :=
  dot_S1x4096_S8192x4096_S1x8192_1_1_0_0_n_n.rhsIdx_val_of_single rfl i q

/-- The host's product of the weight row with the transposed matrix, on the extended reals, is the score row. -/
theorem dot_eq_score (w : FVec Ideal S1x4096 .f32) (g : FVec Ideal S8192x4096 .f32) :
    Host.dotGeneral (F := Ideal) dot_S1x4096_S8192x4096_S1x8192_1_1_0_0_n_n none w g = Cert.Scores.score w g := by
  funext i
  simp only [Host.dotGeneral]
  rw [Ideal.dotGeneral_apply, ← Equiv.sum_comp (ValueIdx.contrEquiv1 dot_S1x4096_S8192x4096_S1x8192_1_1_0_0_n_n 4096 rfl rfl).symm]
  unfold Cert.Scores.score
  refine Finset.sum_congr rfl fun k _ => ?_
  have hk := ValueIdx.contrEquiv1_symm_val dot_S1x4096_S8192x4096_S1x8192_1_1_0_0_n_n 4096 rfl rfl k
  have el : dot_S1x4096_S8192x4096_S1x8192_1_1_0_0_n_n.lhsIdx i ((ValueIdx.contrEquiv1 dot_S1x4096_S8192x4096_S1x8192_1_1_0_0_n_n 4096 rfl rfl).symm k) = Cert.Scores.wAt i k :=
    funext fun a => Fin.ext (by
      match a with
      | ⟨0, _⟩ => exact lhs_row _ _
      | ⟨1, _⟩ => exact (lhs_col _ _).trans hk)
  have er : dot_S1x4096_S8192x4096_S1x8192_1_1_0_0_n_n.rhsIdx i ((ValueIdx.contrEquiv1 dot_S1x4096_S8192x4096_S1x8192_1_1_0_0_n_n 4096 rfl rfl).symm k) = Cert.Scores.gAt i k :=
    funext fun a => Fin.ext (by
      match a with
      | ⟨0, _⟩ => exact rhs_row _ _
      | ⟨1, _⟩ => exact (rhs_col _ _).trans hk)
  rw [el, er]

end Cert.ReferenceIdeal.RefValue

end
-- ==== Proof.KernelPayload.lean ====
/-
  What one grid step of the kernel computes, read at an index.

  At a grid step the body holds the whole weight row [1, 4096] and one tile of 512 matrix rows [512, 4096]; it
  multiplies them on the matrix unit into a zero accumulator, contracting the axes of length 4096, and stores the
  [1, 512] product. On the extended reals the zero accumulator adds nothing, so entry (j₀, j₁) of the stored tile is
  the sum over d of (weight row at (j₀, d)) · (tile at (j₁, d)): the dot product of the weight row with the tile's
  row j₁. The second product of the body is the same function of the second weight row and the second tile.
-/
import proofs.«172609_j15539191677615_2_alg».proof.Proof.Gen.KernelIdeal.Skeleton
import Idealize.ShloMosaic.Lib.ValueIdx
import Idealize.ShloMosaic.PureOps.Ideal.Laws

noncomputable section

namespace Cert.KernelIdeal.Tile

open Cert.KernelIdeal Cert.KernelIdeal.Gen Idealize.ShloMosaic

/-- Entry d of the weight row, as the tile's entry j reads it: (j₀, d). -/
abbrev wAt (j : S1x512.Idx) (d : Fin 4096) : S1x4096.Idx := fun a => match a with
  | ⟨0, _⟩ => ⟨(j 0).val, (j 0).isLt⟩
  | ⟨1, _⟩ => ⟨d.val, d.isLt⟩
/-- Entry d of the tile's row that entry j of the product belongs to: (j₁, d). -/
abbrev gAt (j : S1x512.Idx) (d : Fin 4096) : S512x4096.Idx := fun a => match a with
  | ⟨0, _⟩ => ⟨(j 1).val, (j 1).isLt⟩
  | ⟨1, _⟩ => ⟨d.val, d.isLt⟩

theorem lhs_row (j : S1x512.Idx) (q : dot_S1x4096_S512x4096_S1x512_1_1_0_0_n_n.contr.Idx) :
    (dot_S1x4096_S512x4096_S1x512_1_1_0_0_n_n.lhsIdx j q 0).val = (j 0).val := by
  unfold DotDims.lhsIdx
  rw [dif_neg (show ¬(0 : Fin S1x4096.rank) ∈ dot_S1x4096_S512x4096_S1x512_1_1_0_0_n_n.lhsBatch by decide),
    dif_pos (show (0 : Fin S1x4096.rank) ∈ dot_S1x4096_S512x4096_S1x512_1_1_0_0_n_n.lhsNonContracting by decide)]
  rfl
theorem lhs_col (j : S1x512.Idx) (q : dot_S1x4096_S512x4096_S1x512_1_1_0_0_n_n.contr.Idx) :
    (dot_S1x4096_S512x4096_S1x512_1_1_0_0_n_n.lhsIdx j q 1).val = (q ⟨0, by decide⟩).val :=
  dot_S1x4096_S512x4096_S1x512_1_1_0_0_n_n.lhsIdx_val_of_single rfl j q
theorem rhs_row (j : S1x512.Idx) (q : dot_S1x4096_S512x4096_S1x512_1_1_0_0_n_n.contr.Idx) :
    (dot_S1x4096_S512x4096_S1x512_1_1_0_0_n_n.rhsIdx j q 0).val = (j 1).val := by
  unfold DotDims.rhsIdx
  rw [dif_neg (show ¬(0 : Fin S512x4096.rank) ∈ dot_S1x4096_S512x4096_S1x512_1_1_0_0_n_n.rhsBatch by decide),
    dif_pos (show (0 : Fin S512x4096.rank) ∈ dot_S1x4096_S512x4096_S1x512_1_1_0_0_n_n.rhsNonContracting by decide)]
  rfl
theorem rhs_col (j : S1x512.Idx) (q : dot_S1x4096_S512x4096_S1x512_1_1_0_0_n_n.contr.Idx) :
    (dot_S1x4096_S512x4096_S1x512_1_1_0_0_n_n.rhsIdx j q 1).val = (q ⟨0, by decide⟩).val :=
  dot_S1x4096_S512x4096_S1x512_1_1_0_0_n_n.rhsIdx_val_of_single rfl j q

/-- The matrix unit's product into a zero accumulator, at an index: the dot product of the weight row with the
    tile's row, a plain sum over the 4096 contracted entries. -/
theorem matmul_tile_apply (w : FVec Ideal S1x4096 .f32) (g : FVec Ideal S512x4096 .f32) (j : S1x512.Idx) :
    matmul (F := Ideal) dot_S1x4096_S512x4096_S1x512_1_1_0_0_n_n (some .fp32) w g (constant (F := Ideal) S1x512 .f32 0x00000000#32) j
      = ∑ d : Fin 4096, w (wAt j d) * g (gAt j d) := by
  simp only [matmul]
  rw [Ideal.matmul_constant_zero_apply, ← Equiv.sum_comp (ValueIdx.contrEquiv1 dot_S1x4096_S512x4096_S1x512_1_1_0_0_n_n 4096 rfl rfl).symm]
  refine Finset.sum_congr rfl fun k _ => ?_
  have hk := ValueIdx.contrEquiv1_symm_val dot_S1x4096_S512x4096_S1x512_1_1_0_0_n_n 4096 rfl rfl k
  have el : dot_S1x4096_S512x4096_S1x512_1_1_0_0_n_n.lhsIdx j ((ValueIdx.contrEquiv1 dot_S1x4096_S512x4096_S1x512_1_1_0_0_n_n 4096 rfl rfl).symm k) = wAt j k :=
    funext fun a => Fin.ext (by
      match a with
      | ⟨0, _⟩ => exact lhs_row _ _
      | ⟨1, _⟩ => exact (lhs_col _ _).trans hk)
  have er : dot_S1x4096_S512x4096_S1x512_1_1_0_0_n_n.rhsIdx j ((ValueIdx.contrEquiv1 dot_S1x4096_S512x4096_S1x512_1_1_0_0_n_n 4096 rfl rfl).symm k) = gAt j k :=
    funext fun a => Fin.ext (by
      match a with
      | ⟨0, _⟩ => exact rhs_row _ _
      | ⟨1, _⟩ => exact (rhs_col _ _).trans hk)
  rw [el, er]

/-- The first stored tile: the first weight row against the first matrix's tile. -/
theorem pay1_apply (w : Vec Ideal S1x4096 .f32) (g : Vec Ideal S512x4096 .f32) (j : S1x512.Idx) :
    k0_pay1 (F := Ideal) w g j = ∑ d : Fin 4096, w (wAt j d) * g (gAt j d) :=
  matmul_tile_apply w g j

/-- The second stored tile: the second weight row against the second matrix's tile. -/
theorem pay2_apply (w : Vec Ideal S1x4096 .f32) (g : Vec Ideal S512x4096 .f32) (j : S1x512.Idx) :
    k0_pay2 (F := Ideal) w g j = ∑ d : Fin 4096, w (wAt j d) * g (gAt j d) :=
  matmul_tile_apply w g j

end Cert.KernelIdeal.Tile

end
-- ==== Proof.KernelBlocks.lean ====
/-
  From the tiles to the whole score rows.

  The grid has 16 steps. Step t keeps the two weight rows whole (their block index is (0, 0) at every step), takes
  rows 512·t … 512·t + 511 of each matrix (block (t, 0) of 512 × 4096), and writes entries 512·t … 512·t + 511 of
  each output row (block (0, t) of 1 × 512). So entry (0, s) of an output row is written by step s / 512, which
  reads matrix row s there: what step t writes back is block t of ONE function of the whole arrays — the score row
  `Scores.score` of the weight row and the matrix as the region finds them. The 16 blocks tile the output row, so
  after the run each output row IS that score row.

  The relations between the printed block-index maps are decided once over the 16 steps; a block's coordinate is
  always (block index) × (block size) + (coordinate inside the block).
-/
import proofs.«172609_j15539191677615_2_alg».proof.Proof.Gen.KernelIdeal.Frame
import proofs.«172609_j15539191677615_2_alg».proof.Proof.KernelPayload
import proofs.«172609_j15539191677615_2_alg».proof.Proof.Scores
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat Cfg Window)

variable (m : (ℓ : Loc nD τ sig) → Buf (Elt Ideal) ℓ)

theorem off0 : (![0, 0] : Fin 2 → Nat) = fun _ => 0 := funext fun a => by fin_cases a <;> rfl

/-- The printed block-index maps over the 16 steps: the weight rows stay at block (0, 0); each matrix's row block is
    its output's column block, its column block 0; each output's row block is 0. -/
theorem step_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_4.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_5.index t (0 : Fin 2) = 0 :=
  (by decide +kernel : ∀ t : Fin grid0.N, _)

/-- Every one of the 16 column blocks of the first output row is some step's; -/
theorem step_onto4 : ∀ q : Fin 16, ∃ t : Fin cfg0.N, win0_4.index t = ![0, q.val] :=
  (by decide +kernel : ∀ q : Fin 16, ∃ t : Fin grid0.N, win0_4.index t = ![0, q.val])
/-- and of the second. -/
theorem step_onto5 : ∀ q : Fin 16, ∃ t : Fin cfg0.N, win0_5.index t = ![0, q.val] :=
  (by decide +kernel : ∀ q : Fin 16, ∃ t : Fin grid0.N, win0_5.index t = ![0, q.val])

/-! ## The first output row -/

/-- WHAT STEP t WRITES BACK to the first output is block t of the score row of the first weight row and matrix. -/
theorem flushed4_eq (c : Dev nD) (t : Fin cfg0.N) :
    (dats m 0 c).flushed 4 t
      = ((cfg0.win 4).blk t).view.read (Elt Ideal) (Cert.Scores.score (V m c main_arg2) (V m c main_arg0)) := by
  show (cfg0.win 4).cut (grid0.coords t) ((dats m 0 c).after 4 t) = _
  rw [after0_4]
  unfold out0_4
  rw [View.canon_unit_zero off0]
  simp only [View.ld_unit_zero (S := S1x4096) off0, View.ld_unit_zero (S := S512x4096) off0]
  obtain ⟨e00, e01, e10, e11, e20, e21, e30, e31, e40, e50⟩ := step_facts t
  funext j
  show k0_pay1 (F := Ideal) (iblk m c 0 t) (iblk m c 2 t) j
    = Cert.Scores.score (V m c main_arg2) (V m c main_arg0) (((cfg0.win 4).blk t).view.emb j)
  refine (Cert.KernelIdeal.Tile.pay1_apply (iblk m c 0 t) (iblk m c 2 t) j).trans ?_
  unfold Cert.Scores.score
  refine Finset.sum_congr rfl fun d _ => ?_
  have hw : iblk m c 0 t (Cert.KernelIdeal.Tile.wAt j d)
      = V m c main_arg2 (Cert.Scores.wAt (((cfg0.win 4).blk t).view.emb j) d) := by
    show V m c main_arg2 (((cfg0.win 0).blk t).view.emb (Cert.KernelIdeal.Tile.wAt j d)) = _
    refine congrArg (V m c main_arg2) ?_
    funext a; apply Fin.ext
    match a with
    | ⟨0, _⟩ =>
      show win0_0.index t (0 : Fin 2) * 1 + 1 * (j 0).val = win0_4.index t (0 : Fin 2) * 1 + 1 * (j 0).val
      omega
    | ⟨1, _⟩ =>
      show win0_0.index t (1 : Fin 2) * 4096 + 1 * d.val = d.val
      omega
  have hg : iblk m c 2 t (Cert.KernelIdeal.Tile.gAt j d)
      = V m c main_arg0 (Cert.Scores.gAt (((cfg0.win 4).blk t).view.emb j) d) := by
    show V m c main_arg0 (((cfg0.win 2).blk t).view.emb (Cert.KernelIdeal.Tile.gAt j d)) = _
    refine congrArg (V m c main_arg0) ?_
    funext a; apply Fin.ext
    match a with
    | ⟨0, _⟩ =>
      show win0_2.index t (0 : Fin 2) * 512 + 1 * (j 1).val = win0_4.index t (1 : Fin 2) * 512 + 1 * (j 1).val
      omega
    | ⟨1, _⟩ =>
      show win0_2.index t (1 : Fin 2) * 4096 + 1 * d.val = d.val
      omega
  rw [hw, hg]

/-- An index of the first output row is in step t's block iff each coordinate is in the block's range. -/
theorem mem_blk4 (t : Fin cfg0.N) (i : S1x8192.Idx) :
    i ∈ ((cfg0.win 4).blk t).view.set ↔ ∀ a : Fin 2, win0_4.index t a * S1x512.size a ≤ (i a).val
      ∧ (i a).val < win0_4.index t a * S1x512.size a + S1x512.size a := by
  show i ∈ ((View.whole main_call0_v0_0).slice (win0_4.rect t)).set ↔ _
  rw [View.set_slice_whole, Rect.mem_set_unit]
  exact Iff.rfl

/-- Entry (0, s) is written back by the step whose column block is s / 512. -/
theorem cover4 (i : S1x8192.Idx) :
    ∃ t : Fin cfg0.N, (cfg0.win 4).flush t = true ∧ i ∈ ((cfg0.win 4).blk t).view.set := by
  have hi0 : (i 0).val < 1 := (i 0).isLt
  have hi1 : (i 1).val < 8192 := (i 1).isLt
  obtain ⟨t, ht⟩ := step_onto4 ⟨(i 1).val / 512, by omega⟩
  have q0 : win0_4.index t (0 : Fin 2) = 0 := congrFun ht 0
  have q1 : win0_4.index t (1 : Fin 2) = (i 1).val / 512 := congrFun ht 1
  refine ⟨t, flush0_4 t, ?_⟩
  rw [mem_blk4]
  intro a
  match a with
  | ⟨0, _⟩ =>
    show win0_4.index t (0 : Fin 2) * 1 ≤ (i 0).val ∧ (i 0).val < win0_4.index t (0 : Fin 2) * 1 + 1
    omega
  | ⟨1, _⟩ =>
    show win0_4.index t (1 : Fin 2) * 512 ≤ (i 1).val ∧ (i 1).val < win0_4.index t (1 : Fin 2) * 512 + 512
    omega

/-- THE FIRST OUTPUT ROW after the run is the score row of the first weight row and the first matrix. -/
theorem final4 (c : Dev nD) :
    (dats m 0 c).arrAt 4 cfg0.N = Cert.Scores.score (V m c main_arg2) (V m c main_arg0) :=
  (dats m 0 c).arrAt_eq_of_cover 4 (Cert.Scores.score (V m c main_arg2) (V m c main_arg0))
    (fun t _ => flushed4_eq m c t) cover4

/-! ## The second output row -/

/-- WHAT STEP t WRITES BACK to the second output is block t of the score row of the second weight row and matrix. -/
theorem flushed5_eq (c : Dev nD) (t : Fin cfg0.N) :
    (dats m 0 c).flushed 5 t
      = ((cfg0.win 5).blk t).view.read (Elt Ideal) (Cert.Scores.score (V m c main_arg3) (V m c main_arg1)) := by
  show (cfg0.win 5).cut (grid0.coords t) ((dats m 0 c).after 5 t) = _
  rw [after0_5]
  unfold out0_5
  rw [View.canon_unit_zero off0]
  simp only [View.ld_unit_zero (S := S1x4096) off0, View.ld_unit_zero (S := S512x4096) off0]
  obtain ⟨e00, e01, e10, e11, e20, e21, e30, e31, e40, e50⟩ := step_facts t
  funext j
  show k0_pay2 (F := Ideal) (iblk m c 1 t) (iblk m c 3 t) j
    = Cert.Scores.score (V m c main_arg3) (V m c main_arg1) (((cfg0.win 5).blk t).view.emb j)
  refine (Cert.KernelIdeal.Tile.pay2_apply (iblk m c 1 t) (iblk m c 3 t) j).trans ?_
  unfold Cert.Scores.score
  refine Finset.sum_congr rfl fun d _ => ?_
  have hw : iblk m c 1 t (Cert.KernelIdeal.Tile.wAt j d)
      = V m c main_arg3 (Cert.Scores.wAt (((cfg0.win 5).blk t).view.emb j) d) := by
    show V m c main_arg3 (((cfg0.win 1).blk t).view.emb (Cert.KernelIdeal.Tile.wAt j d)) = _
    refine congrArg (V m c main_arg3) ?_
    funext a; apply Fin.ext
    match a with
    | ⟨0, _⟩ =>
      show win0_1.index t (0 : Fin 2) * 1 + 1 * (j 0).val = win0_5.index t (0 : Fin 2) * 1 + 1 * (j 0).val
      omega
    | ⟨1, _⟩ =>
      show win0_1.index t (1 : Fin 2) * 4096 + 1 * d.val = d.val
      omega
  have hg : iblk m c 3 t (Cert.KernelIdeal.Tile.gAt j d)
      = V m c main_arg1 (Cert.Scores.gAt (((cfg0.win 5).blk t).view.emb j) d) := by
    show V m c main_arg1 (((cfg0.win 3).blk t).view.emb (Cert.KernelIdeal.Tile.gAt j d)) = _
    refine congrArg (V m c main_arg1) ?_
    funext a; apply Fin.ext
    match a with
    | ⟨0, _⟩ =>
      show win0_3.index t (0 : Fin 2) * 512 + 1 * (j 1).val = win0_5.index t (1 : Fin 2) * 512 + 1 * (j 1).val
      omega
    | ⟨1, _⟩ =>
      show win0_3.index t (1 : Fin 2) * 4096 + 1 * d.val = d.val
      omega
  rw [hw, hg]

/-- An index of the second output row is in step t's block iff each coordinate is in the block's range. -/
theorem mem_blk5 (t : Fin cfg0.N) (i : S1x8192.Idx) :
    i ∈ ((cfg0.win 5).blk t).view.set ↔ ∀ a : Fin 2, win0_5.index t a * S1x512.size a ≤ (i a).val
      ∧ (i a).val < win0_5.index t a * S1x512.size a + S1x512.size a := by
  show i ∈ ((View.whole main_call0_v0_1).slice (win0_5.rect t)).set ↔ _
  rw [View.set_slice_whole, Rect.mem_set_unit]
  exact Iff.rfl

/-- Entry (0, s) is written back by the step whose column block is s / 512. -/
theorem cover5 (i : S1x8192.Idx) :
    ∃ t : Fin cfg0.N, (cfg0.win 5).flush t = true ∧ i ∈ ((cfg0.win 5).blk t).view.set := by
  have hi0 : (i 0).val < 1 := (i 0).isLt
  have hi1 : (i 1).val < 8192 := (i 1).isLt
  obtain ⟨t, ht⟩ := step_onto5 ⟨(i 1).val / 512, by omega⟩
  have q0 : win0_5.index t (0 : Fin 2) = 0 := congrFun ht 0
  have q1 : win0_5.index t (1 : Fin 2) = (i 1).val / 512 := congrFun ht 1
  refine ⟨t, flush0_5 t, ?_⟩
  rw [mem_blk5]
  intro a
  match a with
  | ⟨0, _⟩ =>
    show win0_5.index t (0 : Fin 2) * 1 ≤ (i 0).val ∧ (i 0).val < win0_5.index t (0 : Fin 2) * 1 + 1
    omega
  | ⟨1, _⟩ =>
    show win0_5.index t (1 : Fin 2) * 512 ≤ (i 1).val ∧ (i 1).val < win0_5.index t (1 : Fin 2) * 512 + 512
    omega

/-- THE SECOND OUTPUT ROW after the run is the score row of the second weight row and the second matrix. -/
theorem final5 (c : Dev nD) :
    (dats m 0 c).arrAt 5 cfg0.N = Cert.Scores.score (V m c main_arg3) (V m c main_arg1) :=
  (dats m 0 c).arrAt_eq_of_cover 5 (Cert.Scores.score (V m c main_arg3) (V m c main_arg1))
    (fun t _ => flushed5_eq m c t) cover5

end Cert.KernelIdeal.Whole

end
-- ==== Proof.LibTRefRoundTrip.lean ====
/-
  A host line inside a called function writes its value to a typed buffer, and the next line reads it back at the
  same type. Each of the two steps transports the value along the buffer's type equation, in opposite directions, so
  together they are the identity: `x.ofBuf (x.toBuf v) = v` for every typed reference `x` and every value `v` of its
  type. Rewriting with it removes every write-then-read pair from the composed value of a chain of such lines,
  leaving the plain composition of the lines' operations.
-/
import Idealize.ShloMosaic.Lib.StableHlo

namespace Cert.LibTRefRoundTrip

open Idealize.ShloMosaic

/-- A value written to a typed buffer and read back at the same type is itself: the two transports along the
    buffer's type equation cancel. -/
theorem ofBuf_toBuf {sig : RefSig} {Val : EltTy → Type} {T : BufTy} (x : StableHlo.TRef sig T) (v : T.Contents Val) :
    x.ofBuf (x.toBuf v) = v := by
  obtain ⟨r, rfl, _, _⟩ := x
  rfl

end Cert.LibTRefRoundTrip
-- ==== Proof.KernelValue.lean ====
/-
  The kernel's result array.

  After the grid, the host lines of the program take the two score rows the region wrote, apply the softmax to each
  and stack them. Read back, those 31 lines are the one normalise-and-stack function `Scores.stacked` of the two rows
  as the region leaves them (whatever they are: the lines are read over an arbitrary valuation of the buffers), and
  the region leaves the two rows at the score rows of the argument arrays (`Whole.final4`, `Whole.final5`). So the
  result array is `stacked (score wp1 G1) (score wp2 G2)`, and the four argument arrays end unchanged.
-/
import proofs.«172609_j15539191677615_2_alg».proof.Proof.Gen.KernelIdeal.Frame
import proofs.«172609_j15539191677615_2_alg».proof.Proof.KernelBlocks
import proofs.«172609_j15539191677615_2_alg».proof.Proof.Scores
import proofs.«172609_j15539191677615_2_alg».proof.Proof.LibTRefRoundTrip
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

/-- Reading the region's first output buffer at its own type changes nothing; -/
theorem ofBuf_row0 (v : (⟨S1x8192, .f32⟩ : BufTy).Contents (Elt Ideal)) :
    (TRef.of main_call0_v0_0 : TRef sig ⟨S1x8192, .f32⟩).ofBuf (Val := Elt Ideal) v = v := rfl
/-- nor does reading the second. -/
theorem ofBuf_row1 (v : (⟨S1x8192, .f32⟩ : BufTy).Contents (Elt Ideal)) :
    (TRef.of main_call0_v0_1 : TRef sig ⟨S1x8192, .f32⟩).ofBuf (Val := Elt Ideal) v = v := rfl

/-- The host lines after the region, over ANY contents `W` of the buffers: the result buffer ends at the
    normalise-and-stack function of the two rows `W` holds at the region's two outputs. The stacking line's own result
    first, then each stacked operand read back through the lines before it; every intermediate value is written to its
    buffer and read back unchanged. -/
theorem tail_of (W : Valuation τ sig (Elt Ideal)) :
    StableHlo.after (hostOps1 (F := Ideal)) W (Proc.devRef .tc main_v0)
      = Cert.Scores.stacked
          ((TRef.of main_call0_v0_0 : TRef sig ⟨S1x8192, .f32⟩).ofBuf (W (Proc.devRef .tc main_call0_v0_0)))
          ((TRef.of main_call0_v0_1 : TRef sig ⟨S1x8192, .f32⟩).ofBuf (W (Proc.devRef .tc main_call0_v0_1))) := by
  simp only [after_cons, after_nil]
  rw [binary_result]
  refine congrArg₂ (fun a b => concatenate Cert.Scores.SR 1 [⟨Cert.Scores.SP3, a⟩, ⟨Cert.Scores.SP3, b⟩] Cert.Scores.cat) ?_ ?_
  · after_results_simp
    simp only [Cert.LibTRefRoundTrip.ofBuf_toBuf]
    rfl
  · after_results_simp
    simp only [Cert.LibTRefRoundTrip.ofBuf_toBuf]
    rfl

variable (m : (ℓ : Loc nD τ sig) → Buf (Elt Ideal) ℓ) (ρ : Dev nD → PrngReg)

/-- The result buffer after the whole program: the two argument pairs' score rows, normalised and stacked. -/
theorem result_eq (c : Dev nD) :
    Pipeline.afterTail₀ cfgs (dats m) 0 (V0 m) [hostOps1] c main_v0
      = Cert.Scores.stacked (Cert.Scores.score (V m c main_arg2) (V m c main_arg0))
          (Cert.Scores.score (V m c main_arg3) (V m c main_arg1)) := by
  unfold Pipeline.afterTail₀
  show StableHlo.after hostOps1 (Pipeline.withArrays spec0 c (V0 m c) fun w => (dats m 0 c).arrAt w cfg0.N)
    (Proc.devRef .tc main_v0) = _
  refine (tail_of _).trans ?_
  refine congrArg₂ Cert.Scores.stacked ?_ ?_
  · exact (ofBuf_row0 _).trans
      ((Pipeline.withArrays_arr spec0 launch0.win.arr_inj c (V0 m c) (fun w => (dats m 0 c).arrAt w cfg0.N) 4).trans (final4 m c))
  · exact (ofBuf_row1 _).trans
      ((Pipeline.withArrays_arr spec0 launch0.win.arr_inj c (V0 m c) (fun w => (dats m 0 c).arrAt w cfg0.N) 5).trans (final5 m c))

/-- The result buffer is unscoped and is no window's array, so the frame run states its final contents. -/
theorem result_mem : main_v0 ∈ Pipeline.restRefs sig (cfgs 0).spec :=
  Pipeline.mem_restRefs_of main_v0 rfl (fun w => by fin_cases w <;> decide)

/-- THE KERNEL'S RUN, read: every weakly fair execution terminates with the result array at the stacked softmaxes of
    the two score rows of the argument arrays, and the argument arrays unchanged. -/
theorem run : θ_run defs (onTc (τ := τ) (main (F := Ideal))) ⟨m, fun _ => 0, ρ⟩ fun r => ∀ c : Dev nD,
      r.2.mem ((c.tc : Thread nD τ).loc main_v0)
        = Cert.Scores.stacked
            (Cert.Scores.score (m ((c.tc : Thread nD τ).loc main_arg2)) (m ((c.tc : Thread nD τ).loc main_arg0)))
            (Cert.Scores.score (m ((c.tc : Thread nD τ).loc main_arg3)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).2 main_v0 result_mem).trans (result_eq m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩)
    (run_main m ρ)

end Cert.KernelIdeal.Whole

end
-- ==== Proof.lean ====
/-
  Two score rows, softmaxed and stacked: the tiled kernel against the whole-array reference, on the extended reals.

  Both programs take two matrices G1, G2 of shape [8192, 4096] and two weight rows wp1, wp2 of shape [1, 4096], form
  the score rows p_k[0, s] = Σ_d wp_k[0, d] · G_k[s, d], apply the softmax along the 8192 entries of each row and stack
  the two results into [1, 2, 8192].

  The kernel computes the scores in 16 grid steps of 512 matrix rows each, every step a matrix-unit product into a zero
  accumulator; the reference computes each score row by one whole contraction. On the extended reals the zero
  accumulator adds nothing and each entry of either product is the same finite sum of products, written in the same
  order, so the score rows agree entry by entry with no appeal to the finiteness of the inputs (`Scores.score`;
  the kernel side in KernelPayload / KernelBlocks, the reference side in RefScores). The softmax-and-stack lines that
  follow are the same in both programs and are carried as one function of the two rows (`Scores.stacked`), never
  opened. No operation of the kernel is rewritten on the way to the extended reals, so the kernel read there is its
  own text.
-/
import proofs.«172609_j15539191677615_2_alg».proof.Defs
import proofs.«172609_j15539191677615_2_alg».proof.Proof.Gen.Kernel
import proofs.«172609_j15539191677615_2_alg».proof.Proof.Gen.Kernel.Frame
import proofs.«172609_j15539191677615_2_alg».proof.Proof.Gen.KernelIdeal
import proofs.«172609_j15539191677615_2_alg».proof.Proof.Gen.KernelIdeal.Frame
import proofs.«172609_j15539191677615_2_alg».proof.Proof.Gen.ReferenceIdeal
import proofs.«172609_j15539191677615_2_alg».proof.Proof.Gen.Pre_finite_inputs
import proofs.«172609_j15539191677615_2_alg».proof.Proof.Scores
import proofs.«172609_j15539191677615_2_alg».proof.Proof.RefRun
import proofs.«172609_j15539191677615_2_alg».proof.Proof.RefScores
import proofs.«172609_j15539191677615_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result's clause dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing was rewritten on the way to the extended reals. -/
theorem preserves : Cert.preserves_Kernel_KernelIdeal := trivial

/-- From memories agreeing on the four arguments both programs end with the result array at the stacked softmaxes of
    the two score rows: the kernel by its run read back, the reference by its run with each whole contraction
    recognised as a score row and the shared softmax-and-stack lines folded into the one function. -/
theorem algebraic : Cert.algebraic_KernelIdeal_ReferenceIdeal := by
  intro m ρ m' ρ' _ hagree
  refine ⟨fun c => Cert.Scores.stacked
      (Cert.Scores.score (m ((c.tc : Thread Cert.KernelIdeal.nD Cert.KernelIdeal.τ).loc Cert.KernelIdeal.main_arg2))
        (m ((c.tc : Thread Cert.KernelIdeal.nD Cert.KernelIdeal.τ).loc Cert.KernelIdeal.main_arg0)))
      (Cert.Scores.score (m ((c.tc : Thread Cert.KernelIdeal.nD Cert.KernelIdeal.τ).loc Cert.KernelIdeal.main_arg3))
        (m ((c.tc : Thread Cert.KernelIdeal.nD Cert.KernelIdeal.τ).loc Cert.KernelIdeal.main_arg1))),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2]
  beta_reduce
  rw [← Cert.ReferenceIdeal.RefValue.dot_eq_score, ← Cert.ReferenceIdeal.RefValue.dot_eq_score]
  generalize Host.dotGeneral (F := Ideal) Cert.ReferenceIdeal.dot_S1x4096_S8192x4096_S1x8192_1_1_0_0_n_n none
    (m ((c.tc : Thread Cert.KernelIdeal.nD Cert.KernelIdeal.τ).loc Cert.KernelIdeal.main_arg2))
    (m ((c.tc : Thread Cert.KernelIdeal.nD Cert.KernelIdeal.τ).loc Cert.KernelIdeal.main_arg0)) = p1
  generalize Host.dotGeneral (F := Ideal) Cert.ReferenceIdeal.dot_S1x4096_S8192x4096_S1x8192_1_1_0_0_n_n none
    (m ((c.tc : Thread Cert.KernelIdeal.nD Cert.KernelIdeal.τ).loc Cert.KernelIdeal.main_arg3))
    (m ((c.tc : Thread Cert.KernelIdeal.nD Cert.KernelIdeal.τ).loc Cert.KernelIdeal.main_arg1)) = p2
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
